-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2x8 : Shape := ⟨3, ![4194304, 2, 8]⟩
abbrev S4194304x8 : Shape := ⟨2, ![4194304, 8]⟩
abbrev S_ : Shape := ⟨0, ![]⟩

class Facts : Prop where
  bcast_S_S4194304x2x8 : S_.BroadcastsInDim S4194304x2x8 (![] : Fin 0 → Fin S4194304x2x8.rank)
  reducesTo_S4194304x2x8_S_d0_1_2 : S4194304x2x8.ReducesTo [0, 1, 2] S_
  h_S_ : 0 < S_.numel
  bcast_S_S4194304x8 : S_.BroadcastsInDim S4194304x8 (![] : Fin 0 → Fin S4194304x8.rank)
  reducesTo_S4194304x8_S_d0_1 : S4194304x8.ReducesTo [0, 1] S_

variable [Facts]

def fn_part1 {F : FTy → Type} [FloatOps F] (main_v13 : IVec S_ 1) (main_v16 : IVec S4194304x8 1) : IVec S_ 1 :=
  let main_c_5 : IVec S_ 1 := constantI S_ 1 1#1
  let main_v17 : IVec S_ 1 := (fun x v => Host.reduce IntOp.andi x v reducesTo_S4194304x8_S_d0_1 h_S_) main_v16 main_c_5
  let main_v18 : IVec S_ 1 := andi main_v13 main_v17
  main_v18

def fn {F : FTy → Type} [FloatOps F] (main_arg0 : FVec F S4194304x2x8 .f32) (main_arg1 : FVec F S4194304x8 .f32) (main_arg2 : FVec F S4194304x8 .f32) (main_arg3 : FVec F S4194304x8 .f32) : IVec S_ 1 :=
  let main_v0 : FVec F S4194304x2x8 .f32 := Host.absf main_arg0
  let main_cst : FVec F S_ .f32 := constant S_ .f32 0x7F800000#32
  let main_v1 : FVec F S4194304x2x8 .f32 := broadcastInDim S4194304x2x8 ![] bcast_S_S4194304x2x8 main_cst
  let main_v2 : IVec S4194304x2x8 1 := cmpf .olt main_v0 main_v1
  let main_c : IVec S_ 1 := constantI S_ 1 1#1
  let main_v3 : IVec S_ 1 := (fun x v => Host.reduce IntOp.andi x v reducesTo_S4194304x2x8_S_d0_1_2 h_S_) main_v2 main_c
  let main_v4 : FVec F S4194304x8 .f32 := Host.absf main_arg1
  let main_cst_0 : FVec F S_ .f32 := constant S_ .f32 0x7F800000#32
  let main_v5 : FVec F S4194304x8 .f32 := broadcastInDim S4194304x8 ![] bcast_S_S4194304x8 main_cst_0
  let main_v6 : IVec S4194304x8 1 := cmpf .olt main_v4 main_v5
  let main_c_1 : IVec S_ 1 := constantI S_ 1 1#1
  let main_v7 : IVec S_ 1 := (fun x v => Host.reduce IntOp.andi x v reducesTo_S4194304x8_S_d0_1 h_S_) main_v6 main_c_1
  let main_v8 : IVec S_ 1 := andi main_v3 main_v7
  let main_v9 : FVec F S4194304x8 .f32 := Host.absf main_arg2
  let main_cst_2 : FVec F S_ .f32 := constant S_ .f32 0x7F800000#32
  let main_v10 : FVec F S4194304x8 .f32 := broadcastInDim S4194304x8 ![] bcast_S_S4194304x8 main_cst_2
  let main_v11 : IVec S4194304x8 1 := cmpf .olt main_v9 main_v10
  let main_c_3 : IVec S_ 1 := constantI S_ 1 1#1
  let main_v12 : IVec S_ 1 := (fun x v => Host.reduce IntOp.andi x v reducesTo_S4194304x8_S_d0_1 h_S_) main_v11 main_c_3
  let main_v13 : IVec S_ 1 := andi main_v8 main_v12
  let main_v14 : FVec F S4194304x8 .f32 := Host.absf main_arg3
  let main_cst_4 : FVec F S_ .f32 := constant S_ .f32 0x7F800000#32
  let main_v15 : FVec F S4194304x8 .f32 := broadcastInDim S4194304x8 ![] bcast_S_S4194304x8 main_cst_4
  let main_v16 : IVec S4194304x8 1 := cmpf .olt main_v14 main_v15
  fn_part1 (F := F) main_v13 main_v16
-- ==== Kernel.lean ====
abbrev S4194304x2x8 : Shape := ⟨3, ![4194304, 2, 8]⟩
abbrev S4194304x8 : Shape := ⟨2, ![4194304, 8]⟩
abbrev S524288x128 : Shape := ⟨2, ![524288, 128]⟩
abbrev S1x1 : Shape := ⟨2, ![1, 1]⟩
abbrev S16384x128 : Shape := ⟨2, ![16384, 128]⟩
abbrev S16384 : Shape := ⟨1, ![16384]⟩
abbrev S16384x1 : Shape := ⟨2, ![16384, 1]⟩
abbrev S1 : Shape := ⟨1, ![1]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S4194304x2x8, .f32⟩
  | .hbm, ⟨1, _⟩ => ⟨S4194304x8, .f32⟩
  | .hbm, ⟨2, _⟩ => ⟨S4194304x8, .f32⟩
  | .hbm, ⟨3, _⟩ => ⟨S4194304x8, .f32⟩
  | .hbm, ⟨4, _⟩ => ⟨S524288x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S1x1, .f32⟩
  | .local _ .vmem, ⟨3, _⟩ => ⟨S1x1, .f32⟩
  | _, _ => ⟨S4194304x2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v21 : BitVec 1 := Scalar.cmpi .eq arg0 c31_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4194304x2x8_S524288x128 : S4194304x2x8.ShapeCasts S524288x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  iota_S16384x128_d1_w32 : S16384x128.Iotas .tc 32 [1]
  reduces_S16384x128_S16384 : S16384x128.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4194304x2x8 : Shape := ⟨3, ![4194304, 2, 8]⟩
abbrev S4194304x8 : Shape := ⟨2, ![4194304, 8]⟩
abbrev S4194304x1x8 : Shape := ⟨3, ![4194304, 1, 8]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4194304x2x8, .f32⟩
  | .hbm, ⟨1, _⟩ => ⟨S4194304x8, .f32⟩
  | .hbm, ⟨2, _⟩ => ⟨S4194304x8, .f32⟩
  | .hbm, ⟨3, _⟩ => ⟨S4194304x8, .f32⟩
  | .hbm, ⟨4, _⟩ => ⟨S4194304x1x8, .f32⟩
  | .hbm, ⟨5, _⟩ => ⟨S4194304x8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S4194304x2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  slices_S4194304x2x8_S4194304x1x8_0_0_0 : S4194304x2x8.Slices ![0, 0, 0] S4194304x1x8
  shapeCasts_S4194304x1x8_S4194304x8 : S4194304x1x8.ShapeCasts S4194304x8
  reducesTo_S4194304x8_S_d0_1 : S4194304x8.ReducesTo [0, 1] S_
  h_S_ : 0 < S_.numel

variable [Facts₀]

class Facts : Prop extends Facts₀ where

variable [Facts]
-- ==== Proof.Trigger.lean ====
/-
  The one law this certificate rests on.

  Both programs end with the same two scalar operations: a sum `s` is multiplied by the literal zero and the
  literal one is added, `s · 0 + 1`. On the extended reals zero annihilates EVERY element — a real, and also
  `+∞` and `-∞` (`x · 0 = 0` is a law of the extended reals' multiplication, with no side condition) — and
  `0 + y = y`. So the result is the literal one, whatever `s` is: it does not depend on which entries were
  summed, in which order, or on whether the sum is finite. The two sums are therefore never compared.

  The literal one is kept as the word the programs print (`0x3F800000`): the same word stands on both sides of
  every equation below and is never evaluated. Only the zero word is read, as the extended real `0`.
-/
import Idealize.ShloMosaic.PureOps.Ideal.Laws
import Idealize.ShloMosaic.Lib.ValueIdx

noncomputable section

namespace Cert.Trigger

open Idealize.ShloMosaic Idealize.ShloMosaic.ValueIdx

/-- The constant array every run of either program ends with: the literal one at every index. -/
def one (s : Shape) : FVec Ideal s .f32 := constant (F := Ideal) s .f32 0x3F800000#32

/-- `x · 0 + y = y` for every extended real `x`, infinite or not: zero annihilates, then zero is neutral. -/
theorem mul_zero_add (x y : EReal) : x * 0 + y = y := by
  rw [mul_zero, zero_add]

/-- The programs' last two operations, applied to ANY array `v`, give the constant one: index by index the
    value is `v i · 0 + 1`, which is `1` by `mul_zero_add`. -/
theorem tail_eq {s : Shape} (v : FVec Ideal s .f32) :
    addf (mulf v (constant (F := Ideal) s .f32 0x00000000#32)) (constant (F := Ideal) s .f32 0x3F800000#32) = one s := by
  funext i
  rw [addf_apply, mulf_apply, constant_apply, constant_apply, Ideal.ofBits_zero_f32]
  exact mul_zero_add _ _

end Cert.Trigger

end
-- ==== Proof.KernelResult.lean ====
/-
  The kernel's result.

  The kernel's program reshapes `x` to rows of 128 lanes, lets the region accumulate, over its 32 grid points,
  the sum of the lanes that belong to `x[:, 0, :]` into a one-by-one array, and then, on the host, reshapes that
  array to a scalar `s`, multiplies it by the literal zero and adds the literal one. Whatever the region leaves
  in the one-by-one array, the host's last two operations make the result `s · 0 + 1`, and by the law of
  Proof/Trigger.lean (`x · 0 + y = y` on the extended reals, at the infinities too) that is the constant one.
  So the array the region leaves is never read: only the operations after the region are.
-/
import proofs.«102087_j28905129902466_2_alg».proof.Proof.Gen.KernelIdeal.Frame
import proofs.«102087_j28905129902466_2_alg».proof.Proof.Trigger

noncomputable section

namespace Cert.KernelIdeal.KerValue

open Cert.KernelIdeal Cert.KernelIdeal.Gen Idealize.ShloMosaic Idealize.ShloMosaic.TcCoe Idealize.SL.Sem
open Idealize.ShloMosaic.Tactic

/-- What the operations after the region leave in the result buffer: the last two of them are `· 0` and `+ 1`
    applied to the region's reshaped output, so the result is the constant one whatever that output holds. -/
theorem tail_result (m : (ℓ : Loc nD τ sig) → Buf (Elt Ideal) ℓ) (c : Dev nD) :
    Pipeline.afterTail₀ cfgs (dats m) 0 (V0 m) [hostOps1] c main_v4 = Cert.Trigger.one S_ := by
  unfold Pipeline.afterTail₀
  show StableHlo.after hostOps1 _ (Proc.devRef .tc main_v4) = _
  after_results
  exact Cert.Trigger.tail_eq _

/-- Every weakly fair execution of the kernel's program ends with its result at the constant one and its four
    argument arrays unchanged: the result buffer is no array of the region, so it ends as the operations after
    the region leave it (`tail_result`); no operation after the region writes an argument array. -/
theorem run_one (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Trigger.one S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.ReferenceResult.lean ====
/-
  The reference's result.

  The reference slices the first of the two rows of every pair, `x[:, 0, :]`, sums all of its entries from
  the literal zero, multiplies the sum by the literal zero and adds the literal one. Its run, read back as one
  term of the argument arrays, is therefore `(Σ + 0) · 0 + 1` with `Σ` the sum; by the law of
  Proof/Trigger.lean (`x · 0 + y = y` on the extended reals) that term is the constant one, and the sum is
  never opened.
-/
import proofs.«102087_j28905129902466_2_alg».proof.Proof.Gen.ReferenceIdeal.Run
import proofs.«102087_j28905129902466_2_alg».proof.Proof.Trigger

noncomputable section

namespace Cert.ReferenceIdeal.RefValue

open Cert.ReferenceIdeal Cert.ReferenceIdeal.Gen Idealize.ShloMosaic Idealize.ShloMosaic.TcCoe Idealize.SL.Sem

/-- Every weakly fair execution of the reference ends with its result at the constant one and its four argument
    arrays unchanged: the run's composed term is `s · 0 + 1` for the sum `s` of the sliced rows, which is the
    constant one for every extended real `s`. -/
theorem run_one (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Trigger.one S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Cert.Trigger.tail_eq _), (h c).2⟩)
    (Cert.ReferenceIdeal.Value.run (F := Ideal) m ρ)

end Cert.ReferenceIdeal.RefValue

end
-- ==== Proof.lean ====
/-
  The kernel against its reference: both return `sum(x[:, 0, :]) · 0 + 1`.

  The kernel reads `x` as rows of 128 lanes, masks the lanes of `x[:, 1, :]` to zero, and accumulates the
  remaining sum over 32 grid points into a one-by-one array; the reference slices `x[:, 0, :]` and sums it on
  the host. Both programs then multiply their sum by the literal zero and add the literal one. On the extended
  reals zero annihilates every element, the infinities included, so each program's result is the constant one
  (Proof/Trigger.lean), and the two results are equal without the two sums being compared:

  * the reference's run is its composed term `(Σ + 0) · 0 + 1`, the constant one (Proof/ReferenceResult.lean);
  * the kernel's run leaves the result buffer as its host operations after the region leave it, `s · 0 + 1` for
    the region's reshaped output `s`, the constant one again (Proof/KernelResult.lean).

  The precondition (every input finite) is not used by the value claim: the law holds at every extended real.
  The three frame claims are the programs' runs with the result dropped; the idealization rewrote no operation,
  so there is nothing to preserve.
-/
import proofs.«102087_j28905129902466_2_alg».proof.Defs
import proofs.«102087_j28905129902466_2_alg».proof.Proof.Gen.Kernel
import proofs.«102087_j28905129902466_2_alg».proof.Proof.Gen.Kernel.Frame
import proofs.«102087_j28905129902466_2_alg».proof.Proof.Gen.KernelIdeal
import proofs.«102087_j28905129902466_2_alg».proof.Proof.Gen.KernelIdeal.Frame
import proofs.«102087_j28905129902466_2_alg».proof.Proof.Gen.ReferenceIdeal
import proofs.«102087_j28905129902466_2_alg».proof.Proof.Gen.ReferenceIdeal.Run
import proofs.«102087_j28905129902466_2_alg».proof.Proof.Gen.Pre_finite_inputs
import proofs.«102087_j28905129902466_2_alg».proof.Proof.Trigger
import proofs.«102087_j28905129902466_2_alg».proof.Proof.KernelResult
import proofs.«102087_j28905129902466_2_alg».proof.Proof.ReferenceResult
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.run_one m ρ)

/-- No operation was rewritten when the kernel was read over the extended reals. -/
theorem preserves : Cert.preserves_Kernel_KernelIdeal := trivial

/-- From memories that agree on the arguments both programs end with the constant one as their result: each
    result is `s · 0 + 1` for that program's own sum `s`, and `x · 0 + y = y` for every extended real `x`. -/
theorem algebraic : Cert.algebraic_KernelIdeal_ReferenceIdeal := fun m ρ m' ρ' _ _ =>
  ⟨fun _ => Cert.Trigger.one Cert.KernelIdeal.S_, Cert.KernelIdeal.KerValue.run_one m ρ,
    Cert.ReferenceIdeal.RefValue.run_one m' ρ'⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
